-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S256x256 : Shape := ⟨2, ![256, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S1024x256 .f32) (main_arg1 : FVec F S256x256 .f32) (main_arg2 : FVec F S256x256 .f32) (main_arg3 : FVec F S256x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S1024x256 : Shape := ⟨2, ![1024, 256]⟩
abbrev S256x256 : Shape := ⟨2, ![256, 256]⟩
abbrev S256x1024 : Shape := ⟨2, ![256, 1024]⟩
abbrev S16x1024 : Shape := ⟨2, ![16, 1024]⟩
abbrev S1x256 : Shape := ⟨2, ![1, 256]⟩
abbrev S256x1 : Shape := ⟨2, ![256, 1]⟩
abbrev S1024x1 : Shape := ⟨2, ![1024, 1]⟩
abbrev S1024 : Shape := ⟨1, ![1024]⟩
abbrev S1x1024 : Shape := ⟨2, ![1, 1024]⟩
abbrev S8x1024 : Shape := ⟨2, ![8, 1024]⟩

abbrev nBuf : Space → Nat
  | .hbm => 13
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S1024x256, .bf16⟩
  | .hbm, ⟨5, _⟩ => ⟨S256x256, .f32⟩
  | .hbm, ⟨6, _⟩ => ⟨S256x256, .bf16⟩
  | .hbm, ⟨7, _⟩ => ⟨S256x256, .f32⟩
  | .hbm, ⟨8, _⟩ => ⟨S256x256, .bf16⟩
  | .hbm, ⟨9, _⟩ => ⟨S256x256, .f32⟩
  | .hbm, ⟨10, _⟩ => ⟨S256x256, .bf16⟩
  | .hbm, ⟨11, _⟩ => ⟨S256x1024, .f32⟩
  | .hbm, ⟨12, _⟩ => ⟨S1024x256, .f32⟩
  | .local _ .vmem, ⟨0, _⟩ => ⟨S1024x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S16x1024, .f32⟩
  | .local _ .vmem, ⟨5, _⟩ => ⟨S16x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S256x256_S256x256_1_0 : S256x256.Transposes [1, 0] S256x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  iota_S1x256_d1_w32 : S1x256.Iotas .tc 32 [1]
  iota_S256x1_d0_w32 : S256x1.Iotas .tc 32 [0]
  natLt_1_32 : 1 < 32
  broadcasts_S1024x1_S1024x256 : S1024x1.Broadcasts S1024x256
  broadcasts_S1x256_S1024x256 : S1x256.Broadcasts S1024x256
  shapeCasts_S1024x1_S1024 : S1024x1.ShapeCasts S1024
  shapeCasts_S1024_S1x1024 : S1024.ShapeCasts S1x1024
  concatenates_S1x1024_S1x1024_S1x1024_S1x1024_S1x1024_S1x1024_S1x1024_S1x1024_S8x1024_d0 : Shape.Concatenates [S1x1024, S1x1024, S1x1024, S1x1024, S1x1024, S1x1024, S1x1024, S1x1024] S8x1024 0
  inb_S16x1024_S8x1024_0_0 : ∀ a, (![0, 0] : Fin 2 → Nat) a + S8x1024.size a ≤ S16x1024.size a
  h_S8x1024 : 0 < S8x1024.numel
  inb_S16x1024_S8x1024_8_0 : ∀ a, (![8, 0] : Fin 2 → Nat) a + S8x1024.size a ≤ S16x1024.size a
  transposes_S256x1024_S1024x256_1_0 : S256x1024.Transposes [1, 0] S1024x256
  dot_S1024x256_S256x256_S1024x256_1_0_0_1_n_n_wf : DotDims.WF S1024x256 S256x256 S1024x256 [1] [0] [0] [1] [] []
  dot_S1x256_S256x256_S1x256_1_0_0_1_n_n_wf : DotDims.WF S1x256 S256x256 S1x256 [1] [0] [0] [1] [] []
  dot_S1024x256_S256x1_S1024x1_1_0_0_1_n_n_wf : DotDims.WF S1024x256 S256x1 S1024x1 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .bf16 = 32 ∨ (Rect.block (s := S1024x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S256x1024.size a
  hwx0_4 : ∀ i : grid0.Coords, EltTy.bits .f32 = 32 ∨ (Rect.block (s := S256x1024) S16x1024.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x256 : Shape := ⟨2, ![1024, 256]⟩
abbrev S256x256 : Shape := ⟨2, ![256, 256]⟩
abbrev S_ : Shape := ⟨0, ![]⟩
abbrev S1x1024x256 : Shape := ⟨3, ![1, 1024, 256]⟩
abbrev S256x1x256 : Shape := ⟨3, ![256, 1, 256]⟩
abbrev S256x1024x256 : Shape := ⟨3, ![256, 1024, 256]⟩

abbrev nBuf : Space → Nat
  | .hbm => 34
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .i32⟩
  | .hbm, ⟨5, _⟩ => ⟨S256x256, .i32⟩
  | .hbm, ⟨6, _⟩ => ⟨S_, .i32⟩
  | .hbm, ⟨7, _⟩ => ⟨S256x256, .i32⟩
  | .hbm, ⟨8, _⟩ => ⟨S256x256, .i32⟩
  | .hbm, ⟨9, _⟩ => ⟨S256x256, .i1⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S1x1024x256, .f32⟩
  | .hbm, ⟨15, _⟩ => ⟨S256x1x256, .f32⟩
  | .hbm, ⟨16, _⟩ => ⟨S256x1024x256, .f32⟩
  | .hbm, ⟨17, _⟩ => ⟨S256x1024x256, .f32⟩
  | .hbm, ⟨18, _⟩ => ⟨S256x1024x256, .f32⟩
  | .hbm, ⟨19, _⟩ => ⟨S256x1024x256, .f32⟩
  | .hbm, ⟨20, _⟩ => ⟨S256x1024x256, .f32⟩
  | .hbm, ⟨21, _⟩ => ⟨S256x1024x256, .f32⟩
  | .hbm, ⟨22, _⟩ => ⟨S256x1024x256, .f32⟩
  | .hbm, ⟨23, _⟩ => ⟨S256x1024x256, .f32⟩
  | .hbm, ⟨24, _⟩ => ⟨S256x1024x256, .f32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x1024x256, .i1⟩
  | .hbm, ⟨29, _⟩ => ⟨S_, .f32⟩
  | .hbm, ⟨30, _⟩ => ⟨S256x1024x256, .f32⟩
  | .hbm, ⟨31, _⟩ => ⟨S256x1024x256, .f32⟩
  | .hbm, ⟨32, _⟩ => ⟨S_, .f32⟩
  | .hbm, ⟨33, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_cst_1 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S1024x256_S1x1024x256_1_2 : S1024x256.BroadcastsInDim S1x1024x256 (![1, 2] : Fin 2 → Fin S1x1024x256.rank)
  bcast_S256x256_S256x1x256_0_2 : S256x256.BroadcastsInDim S256x1x256 (![0, 2] : Fin 2 → Fin S256x1x256.rank)
  bcast_S1x1024x256_S256x1024x256_0_1_2 : S1x1024x256.BroadcastsInDim S256x1024x256 (![0, 1, 2] : Fin 3 → Fin S256x1024x256.rank)
  bcast_S256x1x256_S256x1024x256_0_1_2 : S256x1x256.BroadcastsInDim S256x1024x256 (![0, 1, 2] : Fin 3 → Fin S256x1024x256.rank)
  bcast_S256x256_S256x1024x256_0_2 : S256x256.BroadcastsInDim S256x1024x256 (![0, 2] : Fin 2 → Fin S256x1024x256.rank)
  bcast_S_S256x1024x256 : S_.BroadcastsInDim S256x1024x256 (![] : Fin 0 → Fin S256x1024x256.rank)
  reducesTo_S256x1024x256_S1024x256_d0 : S256x1024x256.ReducesTo [0] S1024x256
  h_S_ : 0 < S_.numel
  dot_S256x1024x256_S256x256_S256x1024x256_2_1_01_0_n_n_wf : DotDims.WF S256x1024x256 S256x256 S256x1024x256 [2] [1] [0, 1] [0] [] []

variable [Facts₀]

def dot_S256x1024x256_S256x256_S256x1024x256_2_1_01_0_n_n : DotDims S256x1024x256 S256x256 S256x1024x256 where
  lhsContracting := [2]
  rhsContracting := [1]
  lhsNonContracting := [0, 1]
  rhsNonContracting := [0]
  lhsBatch := []
  rhsBatch := []
  wf := dot_S256x1024x256_S256x256_S256x1024x256_2_1_01_0_n_n_wf

class Facts : Prop extends Facts₀ where

variable [Facts]
-- ==== Proof.NodeCol.lean ====
/-
  One grid step of the kernel computes sixteen columns of the result, one per node of its block of sixteen, and
  stores them as two slabs of eight rows.  Every column is the same expression of the step's inputs and of the
  node's number: the one-hot row and column of the node (a lane count compared with the number), the node's row of
  the first weight array and the node's column of the input (products with the one-hot vectors), the first layer's
  shared product less their outer product, `tanh`, the second layer's product, `tanh`, and the product with the
  node's column of the third weight array, `tanh`.  This module names that expression once (`nodeCol`), the slab of
  eight columns (`rows8`), and shows that what the body leaves in the output buffer is the two slabs of it, at any
  float instance: the body's sixteen spellings of the column differ only in where the text is cut.
-/
import proofs.«114213_j57896159150711_2_alg».proof.Proof.FrameKernelIdeal

noncomputable section

namespace Cert.KernelIdeal.Body

open Idealize.ShloMosaic Idealize.SL.Sem Cert.KernelIdeal Cert.KernelIdeal.Gen Cert.KernelIdeal.GenP

variable {F : FTy → Type} [FloatOps F]

/-- The result column of the node numbered `node`: `x` the input block (`v2`), `v4 v6 v8` the three transposed weight
    arrays, `v9` the first layer's product `x · v4` shared by the step's nodes, `v10` and `v11` the lane counts along a
    row and down a column. -/
def nodeCol (node : BitVec 32) (v2 : FVec F S1024x256 .bf16) (v4 v6 v8 : FVec F S256x256 .bf16) (v9 : FVec F S1024x256 .f32)
    (v10 : IVec S1x256 32) (v11 : IVec S256x1 32) : FVec F S1024 .f32 :=
  let ohRow : FVec F S1x256 .bf16 := truncf .bf16 (sitofp .f32 (extui 32 (cmpi .eq v10 (broadcast S1x256 node)) natLt_1_32)) bitsLt_bf16_f32
  let ohCol : FVec F S256x1 .bf16 := truncf .bf16 (sitofp .f32 (extui 32 (cmpi .eq v11 (broadcast S256x1 node)) natLt_1_32)) bitsLt_bf16_f32
  let w0row : FVec F S1x256 .f32 := matmul dot_S1x256_S256x256_S1x256_1_0_0_1_n_n none ohRow v4 (constant S1x256 .f32 0x00000000#32)
  let xcol : FVec F S1024x1 .f32 := matmul dot_S1024x256_S256x1_S1024x1_1_0_0_1_n_n none v2 ohCol (constant S1024x1 .f32 0x00000000#32)
  let h0 : FVec F S1024x256 .bf16 := truncf .bf16 (tanh (subf v9 (mulf (broadcastTo S1024x256 xcol broadcasts_S1024x1_S1024x256)
    (broadcastTo S1024x256 w0row broadcasts_S1x256_S1024x256)))) bitsLt_bf16_f32
  let h1 : FVec F S1024x256 .bf16 := truncf .bf16 (tanh (matmul dot_S1024x256_S256x256_S1024x256_1_0_0_1_n_n none h0 v6
    (constant S1024x256 .f32 0x00000000#32))) bitsLt_bf16_f32
  let w2col : FVec F S256x1 .bf16 := truncf .bf16 (matmul dot_S256x256_S256x1_S256x1_1_0_0_1_n_n none v8 ohCol
    (constant S256x1 .f32 0x00000000#32)) bitsLt_bf16_f32
  shapeCast S1024 (tanh (matmul dot_S1024x256_S256x1_S1024x1_1_0_0_1_n_n none h1 w2col (constant S1024x1 .f32 0x00000000#32)))
    shapeCasts_S1024x1_S1024

/-- Eight columns laid as the eight rows of a slab. -/
def rows8 (c0 c1 c2 c3 c4 c5 c6 c7 : FVec F S1024 .f32) : FVec F S8x1024 .f32 :=
  concatenate S8x1024 0 [⟨S1x1024, shapeCast S1x1024 c0 shapeCasts_S1024_S1x1024⟩, ⟨S1x1024, shapeCast S1x1024 c1 shapeCasts_S1024_S1x1024⟩,
    ⟨S1x1024, shapeCast S1x1024 c2 shapeCasts_S1024_S1x1024⟩, ⟨S1x1024, shapeCast S1x1024 c3 shapeCasts_S1024_S1x1024⟩,
    ⟨S1x1024, shapeCast S1x1024 c4 shapeCasts_S1024_S1x1024⟩, ⟨S1x1024, shapeCast S1x1024 c5 shapeCasts_S1024_S1x1024⟩,
    ⟨S1x1024, shapeCast S1x1024 c6 shapeCasts_S1024_S1x1024⟩, ⟨S1x1024, shapeCast S1x1024 c7 shapeCasts_S1024_S1x1024⟩]
    concatenates_S1x1024_S1x1024_S1x1024_S1x1024_S1x1024_S1x1024_S1x1024_S1x1024_S8x1024_d0

/-- The column of the node at offset `k` in the block of sixteen that grid step `i` handles, from the step's four
    input blocks as the body loads them. -/
def blockNode (i : grid0.Coords) (x0 : Vec F S1024x256 .bf16) (x1 x2 x3 : Vec F S256x256 .bf16) (k : BitVec 32) : FVec F S1024 .f32 :=
  nodeCol (Scalar.addi (Scalar.muli (BitVec.ofNat 32 (i 0).val) 16#32) k)
    (k0_pay2 (View.ld x0 r0_0)) (k0_pay3 (View.ld x1 r0_1)) (k0_pay4 (View.ld x2 r0_1)) (k0_pay5 (View.ld x3 r0_1))
    (k0_pay6 (View.ld x0 r0_0) (View.ld x1 r0_1)) (iota .tc S1x256 32 [1] iota_S1x256_d1_w32) (iota .tc S256x1 32 [0] iota_S256x1_d0_w32)

/-- What the body leaves in the output buffer: rows 8 to 15 hold the columns of nodes 8 to 15 of the block, rows 0 to 7
    those of nodes 0 to 7. -/
theorem out_eq_slabs (i : grid0.Coords) (x0 : Vec F S1024x256 .bf16) (x1 x2 x3 : Vec F S256x256 .bf16) :
    out0_4 i x0 x1 x2 x3 = View.canon [
      ⟨r0_3, rows8 (blockNode i x0 x1 x2 x3 8#32) (blockNode i x0 x1 x2 x3 9#32) (blockNode i x0 x1 x2 x3 10#32) (blockNode i x0 x1 x2 x3 11#32) (blockNode i x0 x1 x2 x3 12#32) (blockNode i x0 x1 x2 x3 13#32) (blockNode i x0 x1 x2 x3 14#32) (blockNode i x0 x1 x2 x3 15#32)⟩,
      ⟨r0_2, rows8 (blockNode i x0 x1 x2 x3 0#32) (blockNode i x0 x1 x2 x3 1#32) (blockNode i x0 x1 x2 x3 2#32) (blockNode i x0 x1 x2 x3 3#32) (blockNode i x0 x1 x2 x3 4#32) (blockNode i x0 x1 x2 x3 5#32) (blockNode i x0 x1 x2 x3 6#32) (blockNode i x0 x1 x2 x3 7#32)⟩] := rfl

end Cert.KernelIdeal.Body

end
-- ==== Proof.Spec.lean ====
/-
  The leave-one-out three-layer tanh network, as one function of the four argument arrays.

  For a batch row `b` and a node `i` the input row `x b` has its entry `i` removed, is pushed through three
  linear layers `y ↦ W y` each followed by `tanh`, and entry `i` of the last layer's output is kept:

    pre0 b i m   = (∑ j, x b j · W0 m j) − x b i · W0 m i            (the full product less the removed term)
    hid1 b i n   = ∑ m, tanh (pre0 b i m) · W1 n m
    outPre b i   = ∑ n, tanh (hid1 b i n) · W2 i n
    net b i      = tanh (outPre b i)

  on the extended reals.  Below it are the laws that join the two programs to it: a sum against a one-hot
  vector picks one term (on either side of the product, at any extended reals, since `0 · a = 0` there); a sum of
  a family that is zero off one index is that term; and, for REAL entries, the sum over the masked row
  `x j · (0 if j = i else 1)` is the full sum less the term at `i` (this one needs finiteness: it is a subtraction).
-/
import Idealize.ShloMosaic.PureOps.Ideal
import Idealize.ShloMosaic.Lib.ValueIdx

noncomputable section

namespace Cert.LeaveOneOut

open Idealize.ShloMosaic Idealize.ShloMosaic.ValueIdx

/-- Indices of the batch-by-node arrays and of the square weight arrays. -/
abbrev XIdx := (⟨2, ![1024, 256]⟩ : Shape).Idx
abbrev WIdx := (⟨2, ![256, 256]⟩ : Shape).Idx

/-- Layer 0 before the `tanh`, for batch row `b`, removed node `i`, output unit `m`. -/
def pre0 (x : XIdx → EReal) (W0 : WIdx → EReal) (b : Fin 1024) (i m : Fin 256) : EReal :=
  (∑ j : Fin 256, x (ix2 b j) * W0 (ix2 m j)) - x (ix2 b i) * W0 (ix2 m i)

/-- Layer 1 before the `tanh`. -/
def hid1 (x : XIdx → EReal) (W0 W1 : WIdx → EReal) (b : Fin 1024) (i n : Fin 256) : EReal :=
  ∑ m : Fin 256, Ideal.tanh (pre0 x W0 b i m) * W1 (ix2 n m)

/-- Layer 2 before the `tanh`, at the one output unit that is kept (unit `i`). -/
def outPre (x : XIdx → EReal) (W0 W1 W2 : WIdx → EReal) (b : Fin 1024) (i : Fin 256) : EReal :=
  ∑ n : Fin 256, Ideal.tanh (hid1 x W0 W1 b i n) * W2 (ix2 i n)

/-- The network's result at `(b, i)`. -/
def net (x : XIdx → EReal) (W0 W1 W2 : WIdx → EReal) : XIdx → EReal :=
  fun q => Ideal.tanh (outPre x W0 W1 W2 (q 0) (q 1))

theorem net_ix2 (x : XIdx → EReal) (W0 W1 W2 : WIdx → EReal) (b : Fin 1024) (i : Fin 256) :
    net x W0 W1 W2 (ix2 b i) = Ideal.tanh (outPre x W0 W1 W2 b i) := rfl

/-! ## Sums against an indicator -/

/-- A one-hot vector on the left of the products picks the term at its index. -/
theorem sum_onehot_mul {n : ℕ} (i : Fin n) (a : Fin n → EReal) :
    ∑ j : Fin n, (if j = i then (1 : EReal) else 0) * a j = a i := by
  rw [Finset.sum_eq_single i]
  · rw [if_pos rfl, one_mul]
  · intro j _ hj; rw [if_neg hj, zero_mul]
  · intro h; exact absurd (Finset.mem_univ i) h

/-- A one-hot vector on the right of the products picks the term at its index. -/
theorem sum_mul_onehot {n : ℕ} (i : Fin n) (a : Fin n → EReal) :
    ∑ j : Fin n, a j * (if j = i then (1 : EReal) else 0) = a i := by
  rw [Finset.sum_eq_single i]
  · rw [if_pos rfl, mul_one]
  · intro j _ hj; rw [if_neg hj, mul_zero]
  · intro h; exact absurd (Finset.mem_univ i) h

/-- A family that vanishes off the index `i` sums, from zero, to its term at `i`. -/
theorem zero_add_sum_diag {n : ℕ} (i : Fin n) (f : Fin n → EReal) :
    (0 : EReal) + ∑ k : Fin n, (if k = i then f k else 0) = f i := by
  rw [zero_add, Finset.sum_ite_eq' Finset.univ i f, if_pos (Finset.mem_univ i)]

/-! ## The masked row -/

/-- The coercion of the reals into the extended reals commutes with finite sums. -/
theorem coe_sum {ι : Type*} (s : Finset ι) (f : ι → ℝ) : ((∑ j ∈ s, f j : ℝ) : EReal) = ∑ j ∈ s, (f j : EReal) := by
  classical
  refine Finset.induction_on s (by simp) fun a s ha ih => ?_
  rw [Finset.sum_insert ha, Finset.sum_insert ha, EReal.coe_add, ih]

/-- For real entries, the products of the row with entry `i` masked to zero sum to the full sum less the term at `i`. -/
theorem masked_sum {n : ℕ} (i : Fin n) (x w : Fin n → ℝ) :
    ∑ j : Fin n, ((x j : EReal) * (if j = i then (0 : EReal) else 1)) * (w j : EReal)
      = (∑ j : Fin n, (x j : EReal) * (w j : EReal)) - (x i : EReal) * (w i : EReal) := by
  have hL : ∀ j : Fin n, ((x j : EReal) * (if j = i then (0 : EReal) else 1)) * (w j : EReal)
      = ((x j * w j - (if j = i then x j * w j else 0) : ℝ) : EReal) := by
    intro j
    by_cases h : j = i
    · rw [if_pos h, if_pos h, mul_zero, zero_mul, sub_self, EReal.coe_zero]
    · rw [if_neg h, if_neg h, mul_one, sub_zero, EReal.coe_mul]
  have hR : ∀ j : Fin n, (x j : EReal) * (w j : EReal) = ((x j * w j : ℝ) : EReal) := fun j => (EReal.coe_mul _ _).symm
  rw [Finset.sum_congr rfl (fun j _ => hL j), Finset.sum_congr rfl (fun j _ => hR j), ← coe_sum, ← coe_sum,
    ← EReal.coe_mul, ← EReal.coe_sub, Finset.sum_sub_distrib, Finset.sum_ite_eq' Finset.univ i, if_pos (Finset.mem_univ i)]

end Cert.LeaveOneOut

end
-- ==== Proof.LibColumns.lean ====
/-
  Columns: arrays whose last axis has extent one.

  A sum or a minimum over the last axis that keeps the axis leaves an [a, 1] array; these lemmas read the three
  re-layings of such a column at an index: a vector [a] cast to the column [a, 1], the column [a, 1] cast to the row
  [1, a], and the column [a, 1] broadcast along a new last axis to [a, b].  In row-major order entry (i, 0) of [a, 1],
  entry i of [a] and entry (0, i) of [1, a] all sit at position i.
-/
import Idealize.ShloMosaic.Lib.Pipeline.Value
import Idealize.ShloMosaic.Lib.ValueIdx

namespace Idealize.ShloMosaic.Columns

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The column `[a, 1]` cast to the row `[1, a]` reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- The column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Idealize.ShloMosaic.Columns
-- ==== Proof.NodeVal.lean ====
/-
  The result column of one node, read at a batch row, on the extended reals.

  The node's one-hot row and column hold 1 at the node's number and 0 elsewhere (a lane count below 256 equals the
  number exactly when the two words are equal).  A product with a one-hot vector is one entry of the other operand,
  so the three extracted vectors are the node's row of the first weight array, the node's column of the input and the
  node's column of the third weight array; the column itself is then three nested sums of products with `tanh` between.
-/
import proofs.«114213_j57896159150711_2_alg».proof.Proof.NodeCol
import proofs.«114213_j57896159150711_2_alg».proof.Proof.Spec
import proofs.«114213_j57896159150711_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Idealize.ShloMosaic.Columns
open Cert.KernelIdeal Cert.KernelIdeal.Gen Cert.LeaveOneOut

/-! ## Words and one-hot entries -/

/-- Two numbers below 256 have the same 32-bit word only if they are equal. -/
theorem ofNat_eq_iff {k n : ℕ} (hk : k < 256) (hn : n < 256) : BitVec.ofNat 32 k = BitVec.ofNat 32 n ↔ k = n := by
  constructor
  · intro h
    have h' := congrArg BitVec.toNat h
    rw [BitVec.toNat_ofNat, BitVec.toNat_ofNat, Nat.mod_eq_of_lt (by omega), Nat.mod_eq_of_lt (by omega)] at h'
    exact h'
  · intro h; rw [h]

/-- The bit of an equality test, widened to a word and read as a signed integer, is 1 or 0. -/
theorem onehot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · have e : IntOp.cmpi .eq a b = 1#1 := by subst h; simp [IntOp.cmpi]
    have e1 : (BitVec.setWidth 32 (1#1 : BitVec 1)).toInt = 1 := by decide
    rw [if_pos h, e, e1]; simp
  · have e : IntOp.cmpi .eq a b = 0#1 := by
      show BitVec.ofBool (a == b) = 0#1
      rw [beq_false_of_ne h]; rfl
    have e0 : (BitVec.setWidth 32 (0#1 : BitVec 1)).toInt = 0 := by decide
    rw [if_neg h, e, e0]; simp

/-- The one-hot row of the node numbered by the word `node`. -/
def ohRow (node : BitVec 32) : FVec Ideal S1x256 .bf16 :=
  truncf .bf16 (sitofp .f32 (extui 32 (cmpi .eq (iota .tc S1x256 32 [1] iota_S1x256_d1_w32) (broadcast S1x256 node)) natLt_1_32)) bitsLt_bf16_f32

/-- The one-hot column of the node numbered by the word `node`. -/
def ohCol (node : BitVec 32) : FVec Ideal S256x1 .bf16 :=
  truncf .bf16 (sitofp .f32 (extui 32 (cmpi .eq (iota .tc S256x1 32 [0] iota_S256x1_d0_w32) (broadcast S256x1 node)) natLt_1_32)) bitsLt_bf16_f32

theorem ohRow_apply (n : Fin 256) (u : Fin 1) (k : Fin 256) :
    ohRow (BitVec.ofNat 32 n.val) (ix2 u k) = if k = n then 1 else 0 := by
  show FloatOps.sitofp (F := Ideal) .f32 ((IntOp.cmpi .eq (iota .tc S1x256 32 [1] iota_S1x256_d1_w32 (ix2 u k)) (BitVec.ofNat 32 n.val)).setWidth 32) = _
  rw [iota_single_apply, onehot_entry]
  show (if BitVec.ofNat 32 k.val = BitVec.ofNat 32 n.val then (1 : EReal) else 0) = _
  by_cases h : k = n
  · rw [if_pos h, if_pos (by rw [h])]
  · rw [if_neg h, if_neg (fun e => h (Fin.ext ((ofNat_eq_iff k.isLt n.isLt).mp e)))]

theorem ohCol_apply (n : Fin 256) (k : Fin 256) (u : Fin 1) :
    ohCol (BitVec.ofNat 32 n.val) (ix2 k u) = if k = n then 1 else 0 := by
  show FloatOps.sitofp (F := Ideal) .f32 ((IntOp.cmpi .eq (iota .tc S256x1 32 [0] iota_S256x1_d0_w32 (ix2 k u)) (BitVec.ofNat 32 n.val)).setWidth 32) = _
  rw [iota_single_apply, onehot_entry]
  show (if BitVec.ofNat 32 k.val = BitVec.ofNat 32 n.val then (1 : EReal) else 0) = _
  by_cases h : k = n
  · rw [if_pos h, if_pos (by rw [h])]
  · rw [if_neg h, if_neg (fun e => h (Fin.ext ((ofNat_eq_iff k.isLt n.isLt).mp e)))]

/-! ## The four block products at an index -/

theorem lhsA_0 (i : S1x256.Idx) (q : dot_S1x256_S256x256_S1x256_1_0_0_1_n_n.contr.Idx) : (dot_S1x256_S256x256_S1x256_1_0_0_1_n_n.lhsIdx i q 0).val = (i 0).val := by
  unfold DotDims.lhsIdx
  rw [dif_neg (show ¬(0 : Fin S1x256.rank) ∈ dot_S1x256_S256x256_S1x256_1_0_0_1_n_n.lhsBatch by decide),
    dif_pos (show (0 : Fin S1x256.rank) ∈ dot_S1x256_S256x256_S1x256_1_0_0_1_n_n.lhsNonContracting by decide)]
  rfl
theorem lhsA_1 (i : S1x256.Idx) (q : dot_S1x256_S256x256_S1x256_1_0_0_1_n_n.contr.Idx) : (dot_S1x256_S256x256_S1x256_1_0_0_1_n_n.lhsIdx i q 1).val = (q ⟨0, by decide⟩).val :=
  dot_S1x256_S256x256_S1x256_1_0_0_1_n_n.lhsIdx_val_of_single rfl i q
theorem rhsA_0 (i : S1x256.Idx) (q : dot_S1x256_S256x256_S1x256_1_0_0_1_n_n.contr.Idx) : (dot_S1x256_S256x256_S1x256_1_0_0_1_n_n.rhsIdx i q 0).val = (q ⟨0, by decide⟩).val :=
  dot_S1x256_S256x256_S1x256_1_0_0_1_n_n.rhsIdx_val_of_single rfl i q
theorem rhsA_1 (i : S1x256.Idx) (q : dot_S1x256_S256x256_S1x256_1_0_0_1_n_n.contr.Idx) : (dot_S1x256_S256x256_S1x256_1_0_0_1_n_n.rhsIdx i q 1).val = (i 1).val := by
  unfold DotDims.rhsIdx
  rw [dif_neg (show ¬(1 : Fin S256x256.rank) ∈ dot_S1x256_S256x256_S1x256_1_0_0_1_n_n.rhsBatch by decide),
    dif_pos (show (1 : Fin S256x256.rank) ∈ dot_S1x256_S256x256_S1x256_1_0_0_1_n_n.rhsNonContracting by decide)]
  rfl

/-- The block product of a row `[1, 256]` times a square array, into a zero accumulator, at `(p, q)`: the sum over the contracted
    position `k` of left `(p, k)` times right `(k, q)`. -/
theorem matmulA_apply {φ₁ φ₂ : FTy} (l : FVec Ideal S1x256 φ₁) (r : FVec Ideal S256x256 φ₂) (p : Fin 1) (q : Fin 256) :
    matmul dot_S1x256_S256x256_S1x256_1_0_0_1_n_n none l r (constant S1x256 .f32 0x00000000#32) (ix2 p q)
      = ∑ k : Fin 256, l (ix2 p k) * r (ix2 k q) := by
  refine (Ideal.matmul_constant_zero_apply dot_S1x256_S256x256_S1x256_1_0_0_1_n_n none l r (ix2 p q)).trans ?_
  rw [← Equiv.sum_comp (contrEquiv1 dot_S1x256_S256x256_S1x256_1_0_0_1_n_n 256 rfl rfl).symm]
  refine Finset.sum_congr rfl fun k _ => ?_
  have hk := contrEquiv1_symm_val dot_S1x256_S256x256_S1x256_1_0_0_1_n_n 256 rfl rfl k
  have el : dot_S1x256_S256x256_S1x256_1_0_0_1_n_n.lhsIdx (ix2 p q) ((contrEquiv1 dot_S1x256_S256x256_S1x256_1_0_0_1_n_n 256 rfl rfl).symm k) = ix2 p k :=
    funext fun a => Fin.ext (by
      match a with
      | ⟨0, _⟩ => exact lhsA_0 _ _
      | ⟨1, _⟩ => exact (lhsA_1 _ _).trans hk)
  have er : dot_S1x256_S256x256_S1x256_1_0_0_1_n_n.rhsIdx (ix2 p q) ((contrEquiv1 dot_S1x256_S256x256_S1x256_1_0_0_1_n_n 256 rfl rfl).symm k) = ix2 k q :=
    funext fun a => Fin.ext (by
      match a with
      | ⟨0, _⟩ => exact (rhsA_0 _ _).trans hk
      | ⟨1, _⟩ => exact rhsA_1 _ _)
  rw [el, er]

theorem lhsB_0 (i : S1024x1.Idx) (q : dot_S1024x256_S256x1_S1024x1_1_0_0_1_n_n.contr.Idx) : (dot_S1024x256_S256x1_S1024x1_1_0_0_1_n_n.lhsIdx i q 0).val = (i 0).val := by
  unfold DotDims.lhsIdx
  rw [dif_neg (show ¬(0 : Fin S1024x256.rank) ∈ dot_S1024x256_S256x1_S1024x1_1_0_0_1_n_n.lhsBatch by decide),
    dif_pos (show (0 : Fin S1024x256.rank) ∈ dot_S1024x256_S256x1_S1024x1_1_0_0_1_n_n.lhsNonContracting by decide)]
  rfl
theorem lhsB_1 (i : S1024x1.Idx) (q : dot_S1024x256_S256x1_S1024x1_1_0_0_1_n_n.contr.Idx) : (dot_S1024x256_S256x1_S1024x1_1_0_0_1_n_n.lhsIdx i q 1).val = (q ⟨0, by decide⟩).val :=
  dot_S1024x256_S256x1_S1024x1_1_0_0_1_n_n.lhsIdx_val_of_single rfl i q
theorem rhsB_0 (i : S1024x1.Idx) (q : dot_S1024x256_S256x1_S1024x1_1_0_0_1_n_n.contr.Idx) : (dot_S1024x256_S256x1_S1024x1_1_0_0_1_n_n.rhsIdx i q 0).val = (q ⟨0, by decide⟩).val :=
  dot_S1024x256_S256x1_S1024x1_1_0_0_1_n_n.rhsIdx_val_of_single rfl i q
theorem rhsB_1 (i : S1024x1.Idx) (q : dot_S1024x256_S256x1_S1024x1_1_0_0_1_n_n.contr.Idx) : (dot_S1024x256_S256x1_S1024x1_1_0_0_1_n_n.rhsIdx i q 1).val = (i 1).val := by
  unfold DotDims.rhsIdx
  rw [dif_neg (show ¬(1 : Fin S256x1.rank) ∈ dot_S1024x256_S256x1_S1024x1_1_0_0_1_n_n.rhsBatch by decide),
    dif_pos (show (1 : Fin S256x1.rank) ∈ dot_S1024x256_S256x1_S1024x1_1_0_0_1_n_n.rhsNonContracting by decide)]
  rfl

/-- The block product of a `[1024, 256]` array times a column `[256, 1]`, into a zero accumulator, at `(p, q)`: the sum over the contracted
    position `k` of left `(p, k)` times right `(k, q)`. -/
theorem matmulB_apply {φ₁ φ₂ : FTy} (l : FVec Ideal S1024x256 φ₁) (r : FVec Ideal S256x1 φ₂) (p : Fin 1024) (q : Fin 1) :
    matmul dot_S1024x256_S256x1_S1024x1_1_0_0_1_n_n none l r (constant S1024x1 .f32 0x00000000#32) (ix2 p q)
      = ∑ k : Fin 256, l (ix2 p k) * r (ix2 k q) := by
  refine (Ideal.matmul_constant_zero_apply dot_S1024x256_S256x1_S1024x1_1_0_0_1_n_n none l r (ix2 p q)).trans ?_
  rw [← Equiv.sum_comp (contrEquiv1 dot_S1024x256_S256x1_S1024x1_1_0_0_1_n_n 256 rfl rfl).symm]
  refine Finset.sum_congr rfl fun k _ => ?_
  have hk := contrEquiv1_symm_val dot_S1024x256_S256x1_S1024x1_1_0_0_1_n_n 256 rfl rfl k
  have el : dot_S1024x256_S256x1_S1024x1_1_0_0_1_n_n.lhsIdx (ix2 p q) ((contrEquiv1 dot_S1024x256_S256x1_S1024x1_1_0_0_1_n_n 256 rfl rfl).symm k) = ix2 p k :=
    funext fun a => Fin.ext (by
      match a with
      | ⟨0, _⟩ => exact lhsB_0 _ _
      | ⟨1, _⟩ => exact (lhsB_1 _ _).trans hk)
  have er : dot_S1024x256_S256x1_S1024x1_1_0_0_1_n_n.rhsIdx (ix2 p q) ((contrEquiv1 dot_S1024x256_S256x1_S1024x1_1_0_0_1_n_n 256 rfl rfl).symm k) = ix2 k q :=
    funext fun a => Fin.ext (by
      match a with
      | ⟨0, _⟩ => exact (rhsB_0 _ _).trans hk
      | ⟨1, _⟩ => exact rhsB_1 _ _)
  rw [el, er]

theorem lhsC_0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem lhsC_1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem rhsC_0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem rhsC_1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The block product of a `[1024, 256]` array times a square array, into a zero accumulator, at `(p, q)`: the sum over the contracted
    position `k` of left `(p, k)` times right `(k, q)`. -/
theorem matmulC_apply {φ₁ φ₂ : FTy} (l : FVec Ideal S1024x256 φ₁) (r : FVec Ideal S256x256 φ₂) (p : Fin 1024) (q : Fin 256) :
    matmul dot_S1024x256_S256x256_S1024x256_1_0_0_1_n_n none l r (constant S1024x256 .f32 0x00000000#32) (ix2 p q)
      = ∑ k : Fin 256, l (ix2 p k) * r (ix2 k q) := by
  refine (Ideal.matmul_constant_zero_apply dot_S1024x256_S256x256_S1024x256_1_0_0_1_n_n none l r (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k :=
    funext fun a => Fin.ext (by
      match a with
      | ⟨0, _⟩ => exact lhsC_0 _ _
      | ⟨1, _⟩ => exact (lhsC_1 _ _).trans hk)
  have er : dot_S1024x256_S256x256_S1024x256_1_0_0_1_n_n.rhsIdx (ix2 p q) ((contrEquiv1 dot_S1024x256_S256x256_S1024x256_1_0_0_1_n_n 256 rfl rfl).symm k) = ix2 k q :=
    funext fun a => Fin.ext (by
      match a with
      | ⟨0, _⟩ => exact (rhsC_0 _ _).trans hk
      | ⟨1, _⟩ => exact rhsC_1 _ _)
  rw [el, er]

theorem lhsD_0 (i : S256x1.Idx) (q : dot_S256x256_S256x1_S256x1_1_0_0_1_n_n.contr.Idx) : (dot_S256x256_S256x1_S256x1_1_0_0_1_n_n.lhsIdx i q 0).val = (i 0).val := by
  unfold DotDims.lhsIdx
  rw [dif_neg (show ¬(0 : Fin S256x256.rank) ∈ dot_S256x256_S256x1_S256x1_1_0_0_1_n_n.lhsBatch by decide),
    dif_pos (show (0 : Fin S256x256.rank) ∈ dot_S256x256_S256x1_S256x1_1_0_0_1_n_n.lhsNonContracting by decide)]
  rfl
theorem lhsD_1 (i : S256x1.Idx) (q : dot_S256x256_S256x1_S256x1_1_0_0_1_n_n.contr.Idx) : (dot_S256x256_S256x1_S256x1_1_0_0_1_n_n.lhsIdx i q 1).val = (q ⟨0, by decide⟩).val :=
  dot_S256x256_S256x1_S256x1_1_0_0_1_n_n.lhsIdx_val_of_single rfl i q
theorem rhsD_0 (i : S256x1.Idx) (q : dot_S256x256_S256x1_S256x1_1_0_0_1_n_n.contr.Idx) : (dot_S256x256_S256x1_S256x1_1_0_0_1_n_n.rhsIdx i q 0).val = (q ⟨0, by decide⟩).val :=
  dot_S256x256_S256x1_S256x1_1_0_0_1_n_n.rhsIdx_val_of_single rfl i q
theorem rhsD_1 (i : S256x1.Idx) (q : dot_S256x256_S256x1_S256x1_1_0_0_1_n_n.contr.Idx) : (dot_S256x256_S256x1_S256x1_1_0_0_1_n_n.rhsIdx i q 1).val = (i 1).val := by
  unfold DotDims.rhsIdx
  rw [dif_neg (show ¬(1 : Fin S256x1.rank) ∈ dot_S256x256_S256x1_S256x1_1_0_0_1_n_n.rhsBatch by decide),
    dif_pos (show (1 : Fin S256x1.rank) ∈ dot_S256x256_S256x1_S256x1_1_0_0_1_n_n.rhsNonContracting by decide)]
  rfl

/-- The block product of a square array times a column `[256, 1]`, into a zero accumulator, at `(p, q)`: the sum over the contracted
    position `k` of left `(p, k)` times right `(k, q)`. -/
theorem matmulD_apply {φ₁ φ₂ : FTy} (l : FVec Ideal S256x256 φ₁) (r : FVec Ideal S256x1 φ₂) (p : Fin 256) (q : Fin 1) :
    matmul dot_S256x256_S256x1_S256x1_1_0_0_1_n_n none l r (constant S256x1 .f32 0x00000000#32) (ix2 p q)
      = ∑ k : Fin 256, l (ix2 p k) * r (ix2 k q) := by
  refine (Ideal.matmul_constant_zero_apply dot_S256x256_S256x1_S256x1_1_0_0_1_n_n none l r (ix2 p q)).trans ?_
  rw [← Equiv.sum_comp (contrEquiv1 dot_S256x256_S256x1_S256x1_1_0_0_1_n_n 256 rfl rfl).symm]
  refine Finset.sum_congr rfl fun k _ => ?_
  have hk := contrEquiv1_symm_val dot_S256x256_S256x1_S256x1_1_0_0_1_n_n 256 rfl rfl k
  have el : dot_S256x256_S256x1_S256x1_1_0_0_1_n_n.lhsIdx (ix2 p q) ((contrEquiv1 dot_S256x256_S256x1_S256x1_1_0_0_1_n_n 256 rfl rfl).symm k) = ix2 p k :=
    funext fun a => Fin.ext (by
      match a with
      | ⟨0, _⟩ => exact lhsD_0 _ _
      | ⟨1, _⟩ => exact (lhsD_1 _ _).trans hk)
  have er : dot_S256x256_S256x1_S256x1_1_0_0_1_n_n.rhsIdx (ix2 p q) ((contrEquiv1 dot_S256x256_S256x1_S256x1_1_0_0_1_n_n 256 rfl rfl).symm k) = ix2 k q :=
    funext fun a => Fin.ext (by
      match a with
      | ⟨0, _⟩ => exact (rhsD_0 _ _).trans hk
      | ⟨1, _⟩ => exact rhsD_1 _ _)
  rw [el, er]

/-! ## The three extracted vectors -/

/-- The one-hot row times the first weight array is that array's row `n`. -/
theorem w0row_apply (n : Fin 256) (v4 : FVec Ideal S256x256 .bf16) (u : Fin 1) (m : Fin 256) :
    matmul dot_S1x256_S256x256_S1x256_1_0_0_1_n_n none (ohRow (BitVec.ofNat 32 n.val)) v4 (constant S1x256 .f32 0x00000000#32) (ix2 u m) = v4 (ix2 n m) := by
  refine (matmulA_apply _ _ _ _).trans ?_
  simp only [ohRow_apply]
  exact sum_onehot_mul n fun k => v4 (ix2 k m)

/-- The input block times the one-hot column is the input's column `n`. -/
theorem xcol_apply (n : Fin 256) (v2 : FVec Ideal S1024x256 .bf16) (b : Fin 1024) (u : Fin 1) :
    matmul dot_S1024x256_S256x1_S1024x1_1_0_0_1_n_n none v2 (ohCol (BitVec.ofNat 32 n.val)) (constant S1024x1 .f32 0x00000000#32) (ix2 b u) = v2 (ix2 b n) := by
  refine (matmulB_apply _ _ _ _).trans ?_
  simp only [ohCol_apply]
  exact sum_mul_onehot n fun k => v2 (ix2 b k)

/-- The third weight array times the one-hot column is that array's column `n`. -/
theorem w2col_apply (n : Fin 256) (v8 : FVec Ideal S256x256 .bf16) (j : Fin 256) (u : Fin 1) :
    matmul dot_S256x256_S256x1_S256x1_1_0_0_1_n_n none v8 (ohCol (BitVec.ofNat 32 n.val)) (constant S256x1 .f32 0x00000000#32) (ix2 j u) = v8 (ix2 j n) := by
  refine (matmulD_apply _ _ _ _).trans ?_
  simp only [ohCol_apply]
  exact sum_mul_onehot n fun k => v8 (ix2 j k)

/-! ## The column from the three vectors -/

/-- A column `[a, 1]` cast to the vector `[a]` reads, at `i`, the operand at `(i, 0)`. -/
theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The column as an expression of the shared first-layer product `v9`, the second weight array `v6` and the three
    extracted vectors: the input's column `xc`, the first weight array's row `wr`, the third's column `wc`. -/
def colOf (v6 : FVec Ideal S256x256 .bf16) (v9 : FVec Ideal S1024x256 .f32) (xc : FVec Ideal S1024x1 .f32) (wr : FVec Ideal S1x256 .f32)
    (wc : FVec Ideal S256x1 .f32) : FVec Ideal S1024 .f32 :=
  shapeCast S1024 (tanh (matmul dot_S1024x256_S256x1_S1024x1_1_0_0_1_n_n none
    (truncf .bf16 (tanh (matmul dot_S1024x256_S256x256_S1024x256_1_0_0_1_n_n none
      (truncf .bf16 (tanh (subf v9 (mulf (broadcastTo S1024x256 xc broadcasts_S1024x1_S1024x256) (broadcastTo S1024x256 wr broadcasts_S1x256_S1024x256)))) bitsLt_bf16_f32)
      v6 (constant S1024x256 .f32 0x00000000#32))) bitsLt_bf16_f32)
    (truncf .bf16 wc bitsLt_bf16_f32) (constant S1024x1 .f32 0x00000000#32))) shapeCasts_S1024x1_S1024

theorem colOf_apply (v6 : FVec Ideal S256x256 .bf16) (v9 : FVec Ideal S1024x256 .f32) (xc : FVec Ideal S1024x1 .f32) (wr : FVec Ideal S1x256 .f32)
    (wc : FVec Ideal S256x1 .f32) (b : Fin 1024) :
    colOf v6 v9 xc wr wc (ix1 b) = Ideal.tanh (∑ j : Fin 256, Ideal.tanh (∑ m : Fin 256,
      Ideal.tanh (v9 (ix2 b m) - xc (ix2 b (0 : Fin 1)) * wr (ix2 (0 : Fin 1) m)) * v6 (ix2 m j)) * wc (ix2 j (0 : Fin 1))) := by
  unfold colOf
  rw [shapeCast_a1_a_apply]
  refine congrArg Ideal.tanh ?_
  refine (matmulB_apply _ _ b (0 : Fin 1)).trans (Finset.sum_congr rfl fun j _ => ?_)
  refine congrArg (· * wc (ix2 j (0 : Fin 1))) ?_
  refine congrArg Ideal.tanh ?_
  refine (matmulC_apply _ v6 b j).trans (Finset.sum_congr rfl fun m _ => ?_)
  refine congrArg (· * v6 (ix2 m j)) ?_
  refine congrArg Ideal.tanh ?_
  show v9 (ix2 b m) - broadcastTo S1024x256 xc broadcasts_S1024x1_S1024x256 (ix2 b m) * broadcastTo S1024x256 wr broadcasts_S1x256_S1024x256 (ix2 b m) = _
  rw [broadcastTo_a1_ab_apply, broadcastTo_1b_ab_apply]

/-- A node's column is `colOf` of its three extracted vectors. -/
theorem nodeCol_eq_colOf (node : BitVec 32) (v2 : FVec Ideal S1024x256 .bf16) (v4 v6 v8 : FVec Ideal S256x256 .bf16) (v9 : FVec Ideal S1024x256 .f32) :
    nodeCol node v2 v4 v6 v8 v9 (iota .tc S1x256 32 [1] iota_S1x256_d1_w32) (iota .tc S256x1 32 [0] iota_S256x1_d0_w32)
      = colOf v6 v9 (matmul dot_S1024x256_S256x1_S1024x1_1_0_0_1_n_n none v2 (ohCol node) (constant S1024x1 .f32 0x00000000#32))
          (matmul dot_S1x256_S256x256_S1x256_1_0_0_1_n_n none (ohRow node) v4 (constant S1x256 .f32 0x00000000#32))
          (matmul dot_S256x256_S256x1_S256x1_1_0_0_1_n_n none v8 (ohCol node) (constant S256x1 .f32 0x00000000#32)) := rfl

/-- The column of node `n` at batch row `b`: with `v9` the shared first-layer product, the three layers with the node's
    term removed from the first. -/
theorem nodeCol_apply (n : Fin 256) (v2 : FVec Ideal S1024x256 .bf16) (v4 v6 v8 : FVec Ideal S256x256 .bf16) (v9 : FVec Ideal S1024x256 .f32)
    (b : Fin 1024) :
    nodeCol (BitVec.ofNat 32 n.val) v2 v4 v6 v8 v9 (iota .tc S1x256 32 [1] iota_S1x256_d1_w32) (iota .tc S256x1 32 [0] iota_S256x1_d0_w32) (ix1 b)
      = Ideal.tanh (∑ j : Fin 256, Ideal.tanh (∑ m : Fin 256,
          Ideal.tanh (v9 (ix2 b m) - v2 (ix2 b n) * v4 (ix2 n m)) * v6 (ix2 m j)) * v8 (ix2 j n)) := by
  rw [nodeCol_eq_colOf, colOf_apply]
  simp only [xcol_apply, w0row_apply, w2col_apply]

end Cert.KernelIdeal.Body

end
-- ==== Proof.BlockVal.lean ====
/-
  What one grid step leaves in its output buffer, as one function of the buffer's index.

  Grid step `g` handles the sixteen nodes `16 g, …, 16 g + 15`; row `r` of its `[16, 1024]` buffer is the result column
  of node `16 g + r` (the two stored slabs of eight rows cover the buffer).  The inputs the body loads are the whole
  staged arrays, so with `x` the input and `a, b, c` the three transposed weight arrays the entry `(r, batch)` is

    tanh (∑ j, tanh (∑ m, tanh ((∑ k, x batch k · a k m) − x batch n · a n m) · b m j) · c j n),   n = 16 g + r.
-/
import proofs.«114213_j57896159150711_2_alg».proof.Proof.NodeVal

noncomputable section

namespace Cert.KernelIdeal.Body

open Idealize.ShloMosaic Idealize.SL.Sem Idealize.ShloMosaic.ValueIdx
open Cert.KernelIdeal Cert.KernelIdeal.Gen Cert.KernelIdeal.GenP Cert.LeaveOneOut

/-! ## A slab of eight rows at an index -/

/-- Row `r` of a slab of eight columns is column `r`. -/
theorem rows8_apply (c0 c1 c2 c3 c4 c5 c6 c7 : FVec Ideal S1024 .f32) (r : Fin 8) (b : Fin 1024) :
    rows8 c0 c1 c2 c3 c4 c5 c6 c7 (ix2 r b) = (![c0, c1, c2, c3, c4, c5, c6, c7] r) (ix1 b) := by
  unfold rows8
  show concatenate S8x1024 0 (List.ofFn fun n : Fin 8 =>
    (⟨S1x1024, shapeCast S1x1024 ((![c0, c1, c2, c3, c4, c5, c6, c7] : Fin 8 → FVec Ideal S1024 .f32) n) shapeCasts_S1024_S1x1024⟩ :
      (s : Shape) × (s.Idx → EReal))) _ (ix2 r b) = _
  refine (concatenate_ofFn_unit_apply (t := S8x1024) (s₁ := S1x1024) 0
    (fun n : Fin 8 => shapeCast S1x1024 ((![c0, c1, c2, c3, c4, c5, c6, c7] : Fin 8 → FVec Ideal S1024 .f32) n) shapeCasts_S1024_S1x1024)
    _ rfl rfl (ix2 r b) r rfl (ix2 (0 : Fin 1) b) (fun ax hax => ?_)).trans (shapeCast_a_1a_apply _ _ (0 : Fin 1) b)
  match ax with
  | ⟨0, _⟩ => exact absurd rfl hax
  | ⟨1, _⟩ => rfl

/-! ## The buffer as one function -/

/-- The buffer's contents: at `(r, batch)` the column of the node at offset `r`, at `batch`. -/
def blockFn (i : grid0.Coords) (x0 : Vec Ideal S1024x256 .bf16) (x1 x2 x3 : Vec Ideal S256x256 .bf16) : S16x1024.Idx → EReal :=
  fun y => blockNode i x0 x1 x2 x3 (BitVec.ofNat 32 (y 0).val) (ix1 (⟨(y 1).val, (y 1).isLt⟩ : Fin 1024))

/-- At row `off + r` of a slab that starts at row `off` and at column 0. -/
theorem blockFn_emb (i : grid0.Coords) (x0 : Vec Ideal S1024x256 .bf16) (x1 x2 x3 : Vec Ideal S256x256 .bf16)
    (off : Fin 2 → ℕ) (inb : ∀ a, off a + S8x1024.size a ≤ S16x1024.size a) (h1 : off 1 = 0) (r : Fin 8) (b : Fin 1024) :
    blockFn i x0 x1 x2 x3 ((Rect.unit (s := S16x1024) off S8x1024.size inb).emb (ix2 r b))
      = blockNode i x0 x1 x2 x3 (BitVec.ofNat 32 (off 0 + r.val)) (ix1 b) := by
  have key : ∀ (n n' : ℕ) (q q' : Fin 1024), n = n' → q = q' →
      blockNode i x0 x1 x2 x3 (BitVec.ofNat 32 n) (ix1 q) = blockNode i x0 x1 x2 x3 (BitVec.ofNat 32 n') (ix1 q') := by
    rintro _ _ _ _ rfl rfl; rfl
  exact key _ _ _ _ (show off 0 + 1 * r.val = off 0 + r.val by omega)
    (Fin.ext (show off 1 + 1 * b.val = b.val by omega))

/-- What the body leaves in the output buffer is that function. -/
theorem out_apply (i : grid0.Coords) (x0 : Vec Ideal S1024x256 .bf16) (x1 x2 x3 : Vec Ideal S256x256 .bf16) (y : S16x1024.Idx) :
    out0_4 (F := Ideal) i x0 x1 x2 x3 y = blockFn i x0 x1 x2 x3 y := by
  rw [out_eq_slabs]
  refine View.canon_apply_of_pieces (Val := Elt Ideal) (e := .f32) (blockFn i x0 x1 x2 x3) _ (fun p hp x => ?_) y (cover0_4 _ _ y)
  simp only [List.mem_cons, List.mem_nil_iff, or_false] at hp
  rcases hp with rfl | rfl
  · obtain ⟨r, b, rfl⟩ : ∃ (r : Fin 8) (b : Fin 1024), x = ix2 r b := ⟨x 0, x 1, eq_ix2 x⟩
    refine (rows8_apply _ _ _ _ _ _ _ _ r b).trans ?_
    refine Eq.trans ?_ (blockFn_emb i x0 x1 x2 x3 ![8, 0] inb_S16x1024_S8x1024_8_0 rfl r b).symm
    fin_cases r <;> rfl
  · obtain ⟨r, b, rfl⟩ : ∃ (r : Fin 8) (b : Fin 1024), x = ix2 r b := ⟨x 0, x 1, eq_ix2 x⟩
    refine (rows8_apply _ _ _ _ _ _ _ _ r b).trans ?_
    refine Eq.trans ?_ (blockFn_emb i x0 x1 x2 x3 ![0, 0] inb_S16x1024_S8x1024_0_0 rfl r b).symm
    fin_cases r <;> rfl

/-! ## The node's word, the loads and the shared product -/

/-- Sixteen times a step below 16 plus an offset below 16, as 32-bit words, is the word of the number. -/
theorem node_word (g r : ℕ) (hg : g < 16) (hr : r < 16) :
    Scalar.addi (Scalar.muli (BitVec.ofNat 32 g) 16#32) (BitVec.ofNat 32 r) = BitVec.ofNat 32 (16 * g + r) := by
  apply BitVec.eq_of_toNat_eq
  show (BitVec.ofNat 32 g * 16#32 + BitVec.ofNat 32 r).toNat = (BitVec.ofNat 32 (16 * g + r)).toNat
  simp only [BitVec.toNat_add, BitVec.toNat_mul, BitVec.toNat_ofNat]
  omega

theorem zeros2 : (![0, 0] : Fin 2 → ℕ) = fun _ => 0 := funext fun a => by fin_cases a <;> rfl

/-- The body's load of a whole staged array, cast to its own shape, is the array. -/
theorem load_x (x0 : Vec Ideal S1024x256 .bf16) : k0_pay2 (View.ld x0 r0_0) = x0 := by
  unfold k0_pay2
  rw [shapeCast_self]
  exact View.ld_unit_zero (S := S1024x256) zeros2 _ x0
theorem load_w0 (x1 : Vec Ideal S256x256 .bf16) : k0_pay3 (View.ld x1 r0_1) = x1 := by
  unfold k0_pay3
  rw [shapeCast_self]
  exact View.ld_unit_zero (S := S256x256) zeros2 _ x1
theorem load_w1 (x2 : Vec Ideal S256x256 .bf16) : k0_pay4 (View.ld x2 r0_1) = x2 := by
  unfold k0_pay4
  rw [shapeCast_self]
  exact View.ld_unit_zero (S := S256x256) zeros2 _ x2
theorem load_w2 (x3 : Vec Ideal S256x256 .bf16) : k0_pay5 (View.ld x3 r0_1) = x3 := by
  unfold k0_pay5
  rw [shapeCast_self]
  exact View.ld_unit_zero (S := S256x256) zeros2 _ x3

/-- The first layer's product shared by the step's nodes, at `(batch, m)`. -/
theorem base_apply (x0 : Vec Ideal S1024x256 .bf16) (x1 : Vec Ideal S256x256 .bf16) (b : Fin 1024) (m : Fin 256) :
    k0_pay6 (View.ld x0 r0_0) (View.ld x1 r0_1) (ix2 b m) = ∑ k : Fin 256, x0 (ix2 b k) * x1 (ix2 k m) := by
  unfold k0_pay6
  rw [load_x, load_w0]
  exact matmulC_apply x0 x1 b m

/-- The buffer at `(r, batch)`, for the node `n = 16 g + r`. -/
theorem blockFn_apply (i : grid0.Coords) (x0 : Vec Ideal S1024x256 .bf16) (x1 x2 x3 : Vec Ideal S256x256 .bf16)
    (r : Fin 16) (b : Fin 1024) (n : Fin 256) (hn : n.val = 16 * (i 0).val + r.val) :
    blockFn i x0 x1 x2 x3 (ix2 r b)
      = Ideal.tanh (∑ j : Fin 256, Ideal.tanh (∑ m : Fin 256,
          Ideal.tanh ((∑ k : Fin 256, x0 (ix2 b k) * x1 (ix2 k m)) - x0 (ix2 b n) * x1 (ix2 n m)) * x2 (ix2 m j)) * x3 (ix2 j n)) := by
  have hg : (i 0).val < 16 := (i 0).isLt
  show blockNode i x0 x1 x2 x3 (BitVec.ofNat 32 r.val) (ix1 b) = _
  unfold blockNode
  rw [node_word _ _ hg r.isLt, ← hn, load_x, load_w0, load_w1, load_w2, nodeCol_apply]
  simp only [base_apply]

end Cert.KernelIdeal.Body

end
-- ==== Proof.RegionValue.lean ====
/-
  The region's output array after the run, as one function of the four staged arrays.

  Grid step `t` writes back rows `16 t, …, 16 t + 15` of the `[256, 1024]` output array, and the sixteen steps cover it.
  The four input windows are the whole staged arrays at every step.  So entry `(n, batch)` of the array after the run is
  the result column of node `n` at `batch`: with `X` the staged input and `A, B, C` the staged (transposed) weight arrays,

    outAt n batch = tanh (∑ j, tanh (∑ m, tanh ((∑ k, X batch k · A k m) − X batch n · A n m) · B m j) · C j n).
-/
import proofs.«114213_j57896159150711_2_alg».proof.Proof.BlockVal

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.KernelIdeal.Body

variable (m : (ℓ : Loc nD τ sig) → Buf (Elt Ideal) ℓ)

/-- The result of node `n` at batch row `b`, from the staged input `X` and the staged transposed weight arrays. -/
def outAt (X : S1024x256.Idx → EReal) (A B C : S256x256.Idx → EReal) (n : Fin 256) (b : Fin 1024) : EReal :=
  Ideal.tanh (∑ j : Fin 256, Ideal.tanh (∑ mm : Fin 256,
    Ideal.tanh ((∑ k : Fin 256, X (ix2 b k) * A (ix2 k mm)) - X (ix2 b n) * A (ix2 n mm)) * B (ix2 mm j)) * C (ix2 j n))

/-- The output array: entry `(n, b)` is `outAt n b`. -/
def outT (X : S1024x256.Idx → EReal) (A B C : S256x256.Idx → EReal) : S256x1024.Idx → EReal :=
  fun y => outAt X A B C ⟨(y 0).val, (y 0).isLt⟩ ⟨(y 1).val, (y 1).isLt⟩

theorem outT_ix2 (X : S1024x256.Idx → EReal) (A B C : S256x256.Idx → EReal) (n : Fin 256) (b : Fin 1024) :
    outT X A B C (ix2 n b) = outAt X A B C n b := rfl

/-- The printed index maps, decided over the grid: the four input windows stay at block `(0, 0)`, the output window is at
    block `(t, 0)`, and the grid coordinate of point `t` is `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ ((grid0.coords t) 0).val = t.val :=
  (by decide +kernel : ∀ t : Fin grid0.N, _)

/-! ## The input blocks are the staged arrays -/

theorem iblk0_apply (c : Dev nD) (t : Fin cfg0.N) (b : Fin 1024) (k : Fin 256) :
    iblk m c 0 t (ix2 b k) = V m c main_v0 (ix2 b k) := by
  show V m c main_v0 (((cfg0.win 0).blk t).view.emb (ix2 b k)) = V m c main_v0 (ix2 b k)
  obtain ⟨e0, e1, -⟩ := idx_facts t
  refine congrArg _ (funext fun a => Fin.ext ?_)
  match a with
  | ⟨0, _⟩ => show win0_0.index t (0 : Fin 2) * 1024 + 1 * b.val = b.val; omega
  | ⟨1, _⟩ => show win0_0.index t (1 : Fin 2) * 256 + 1 * k.val = k.val; omega

theorem iblk1_apply (c : Dev nD) (t : Fin cfg0.N) (p q : Fin 256) :
    iblk m c 1 t (ix2 p q) = V m c main_v2 (ix2 p q) := by
  show V m c main_v2 (((cfg0.win 1).blk t).view.emb (ix2 p q)) = V m c main_v2 (ix2 p q)
  obtain ⟨-, -, e0, e1, -⟩ := idx_facts t
  refine congrArg _ (funext fun a => Fin.ext ?_)
  match a with
  | ⟨0, _⟩ => show win0_1.index t (0 : Fin 2) * 256 + 1 * p.val = p.val; omega
  | ⟨1, _⟩ => show win0_1.index t (1 : Fin 2) * 256 + 1 * q.val = q.val; omega

theorem iblk2_apply (c : Dev nD) (t : Fin cfg0.N) (p q : Fin 256) :
    iblk m c 2 t (ix2 p q) = V m c main_v4 (ix2 p q) := by
  show V m c main_v4 (((cfg0.win 2).blk t).view.emb (ix2 p q)) = V m c main_v4 (ix2 p q)
  obtain ⟨-, -, -, -, e0, e1, -⟩ := idx_facts t
  refine congrArg _ (funext fun a => Fin.ext ?_)
  match a with
  | ⟨0, _⟩ => show win0_2.index t (0 : Fin 2) * 256 + 1 * p.val = p.val; omega
  | ⟨1, _⟩ => show win0_2.index t (1 : Fin 2) * 256 + 1 * q.val = q.val; omega

theorem iblk3_apply (c : Dev nD) (t : Fin cfg0.N) (p q : Fin 256) :
    iblk m c 3 t (ix2 p q) = V m c main_v6 (ix2 p q) := by
  show V m c main_v6 (((cfg0.win 3).blk t).view.emb (ix2 p q)) = V m c main_v6 (ix2 p q)
  obtain ⟨-, -, -, -, -, -, e0, e1, -⟩ := idx_facts t
  refine congrArg _ (funext fun a => Fin.ext ?_)
  match a with
  | ⟨0, _⟩ => show win0_3.index t (0 : Fin 2) * 256 + 1 * p.val = p.val; omega
  | ⟨1, _⟩ => show win0_3.index t (1 : Fin 2) * 256 + 1 * q.val = q.val; omega

/-! ## What a grid step writes back -/

/-- What point `t` writes back is block `t` of `outT` of the staged arrays. -/
theorem flushed_eq (c : Dev nD) (t : Fin cfg0.N) :
    (dats m 0 c).flushed 4 t = ((cfg0.win 4).blk t).view.read (Elt Ideal)
      (outT (V m c main_v0) (V m c main_v2) (V m c main_v4) (V m c main_v6)) := by
  show (cfg0.win 4).cut (grid0.coords t) ((dats m 0 c).after 4 t) = _
  rw [after0_4]
  funext y
  obtain ⟨r, b, rfl⟩ : ∃ (r : Fin 16) (b : Fin 1024), y = ix2 r b := ⟨y 0, y 1, eq_ix2 y⟩
  show out0_4 (grid0.coords t) (iblk m c 0 t) (iblk m c 1 t) (iblk m c 2 t) (iblk m c 3 t) (ix2 r b)
    = outT (V m c main_v0) (V m c main_v2) (V m c main_v4) (V m c main_v6) (((cfg0.win 4).blk t).view.emb (ix2 r b))
  obtain ⟨-, -, -, -, -, -, -, -, e8, e9, eg⟩ := idx_facts t
  have ht : t.val < 16 := by
    have h := t.isLt
    have hN : cfg0.N = 16 := N_0
    omega
  have hr : r.val < 16 := r.isLt
  have hb : b.val < 1024 := b.isLt
  have h0 : ((((cfg0.win 4).blk t).view.emb (ix2 r b)) 0).val = 16 * t.val + r.val := by
    show win0_4.index t (0 : Fin 2) * 16 + 1 * r.val = _; omega
  have h1 : ((((cfg0.win 4).blk t).view.emb (ix2 r b)) 1).val = b.val := by
    show win0_4.index t (1 : Fin 2) * 1024 + 1 * b.val = _; omega
  have hn : (⟨16 * t.val + r.val, by omega⟩ : Fin 256).val = 16 * ((grid0.coords t) 0).val + r.val := by
    show 16 * t.val + r.val = _; omega
  rw [out_apply, blockFn_apply (grid0.coords t) (iblk m c 0 t) (iblk m c 1 t) (iblk m c 2 t) (iblk m c 3 t) r b ⟨16 * t.val + r.val, by omega⟩ hn]
  simp only [iblk0_apply m c t, iblk1_apply m c t, iblk2_apply m c t, iblk3_apply m c t]
  have key : ∀ (n n' : Fin 256) (q q' : Fin 1024), n = n' → q = q' →
      outAt (V m c main_v0) (V m c main_v2) (V m c main_v4) (V m c main_v6) n q
        = outAt (V m c main_v0) (V m c main_v2) (V m c main_v4) (V m c main_v6) n' q' := by
    rintro _ _ _ _ rfl rfl; rfl
  exact key _ _ _ _ (Fin.ext h0.symm) (Fin.ext h1.symm)

/-! ## The steps' blocks cover the array -/

/-- An index of the array is in point `t`'s block iff each coordinate is in the block's range on its axis. -/
theorem mem_blk (t : Fin cfg0.N) (i : S256x1024.Idx) :
    i ∈ ((cfg0.win 4).blk t).view.set ↔ ∀ a : Fin 2, win0_4.index t a * S16x1024.size a ≤ (i a).val
      ∧ (i a).val < win0_4.index t a * S16x1024.size a + S16x1024.size a := by
  show i ∈ ((View.whole main_v7).slice (win0_4.rect t)).set ↔ _
  rw [View.set_slice_whole, Rect.mem_set_unit]
  exact Iff.rfl

/-- Row `n` of the array is written back by step `n / 16`. -/
theorem cover (i : S256x1024.Idx) :
    ∃ t : Fin cfg0.N, (cfg0.win 4).flush t = true ∧ i ∈ ((cfg0.win 4).blk t).view.set := by
  have hi0 : (i 0).val < 256 := (i 0).isLt
  have hi1 : (i 1).val < 1024 := (i 1).isLt
  have hN : cfg0.N = 16 := N_0
  refine ⟨⟨(i 0).val / 16, by rw [hN]; omega⟩, flush0_4 _, ?_⟩
  rw [mem_blk]
  obtain ⟨-, -, -, -, -, -, -, -, e8, e9, -⟩ := idx_facts ⟨(i 0).val / 16, by rw [hN]; omega⟩
  intro a
  match a with
  | ⟨0, _⟩ =>
    show win0_4.index _ (0 : Fin 2) * 16 ≤ (i 0).val ∧ (i 0).val < win0_4.index _ (0 : Fin 2) * 16 + 16
    rw [e8]; show (i 0).val / 16 * 16 ≤ (i 0).val ∧ (i 0).val < (i 0).val / 16 * 16 + 16
    omega
  | ⟨1, _⟩ =>
    show win0_4.index _ (1 : Fin 2) * 1024 ≤ (i 1).val ∧ (i 1).val < win0_4.index _ (1 : Fin 2) * 1024 + 1024
    rw [e9]; omega

/-- The output array after the run. -/
theorem final (c : Dev nD) :
    (dats m 0 c).arrAt 4 cfg0.N = outT (V m c main_v0) (V m c main_v2) (V m c main_v4) (V m c main_v6) :=
  (dats m 0 c).arrAt_eq_of_cover 4 _ (fun t _ => flushed_eq m c t) cover

end Cert.KernelIdeal.RegionValue

end
-- ==== Proof.HostSide.lean ====
/-
  The host operations around the region, read at an index on the extended reals.

  Before the region the program narrows the input array to the kernel's storage format and transposes and narrows each
  weight array; on the extended reals narrowing is the identity, so the region finds the input array itself and each
  weight array with its two coordinates exchanged.  After the region the program transposes the region's output array,
  so the program's result at (b, i) is that array at (i, b).
-/
import proofs.«114213_j57896159150711_2_alg».proof.Proof.FrameKernelIdeal
import Idealize.ShloMosaic.Lib.Pipeline.Value
import Idealize.ShloMosaic.Lib.ValueIdx
import Idealize.ShloMosaic.Lib.StableHlo.Run

set_option maxRecDepth 16384

noncomputable section

namespace Cert.KernelIdeal.HostSide

open Idealize.ShloMosaic Idealize.ShloMosaic.TcCoe Idealize.SL.Sem Idealize.ShloMosaic.ValueIdx
open Cert.KernelIdeal Cert.KernelIdeal.Gen Cert.KernelIdeal.GenP

variable (m : (ℓ : Loc nD τ sig) → Buf (Elt Ideal) ℓ)

/-- A square array transposed, read at (k, j), is the array at (j, k). -/
theorem transpose_sq_apply (x : S256x256.Idx → EReal) (h : S256x256.Transposes [1, 0] S256x256) (k j : Fin 256) :
    transpose S256x256 [1, 0] x h (ix2 k j) = x (ix2 j k) :=
  transpose_apply [1, 0] x h (ix2 k j) (ix2 j k) (fun b => by match b with | ⟨0, _⟩ => rfl | ⟨1, _⟩ => rfl)

/-- The region's first input is the program's first argument. -/
theorem V_x (c : Dev nD) (q : S1024x256.Idx) : V m c main_v0 q = m ((c : Thread nD τ).loc main_arg0) q := by
  have e : (V m c main_v0 : S1024x256.Idx → EReal) = (m ((c : Thread nD τ).loc main_arg0) : S1024x256.Idx → EReal) := by
    show StableHlo.after hostOps0 (fun b => m (c, b)) (Proc.devRef .tc main_v0) = _
    after_results
    rfl
  exact congrFun e q

/-- The region's second input is the first weight array transposed. -/
theorem V_wt0 (c : Dev nD) (k j : Fin 256) : V m c main_v2 (ix2 k j) = m ((c : Thread nD τ).loc main_arg1) (ix2 j k) := by
  have e : (V m c main_v2 : S256x256.Idx → EReal)
      = transpose S256x256 [1, 0] (m ((c : Thread nD τ).loc main_arg1) : S256x256.Idx → EReal) transposes_S256x256_S256x256_1_0 := by
    show StableHlo.after hostOps0 (fun b => m (c, b)) (Proc.devRef .tc main_v2) = _
    after_results
    rfl
  exact (congrFun e (ix2 k j)).trans (transpose_sq_apply _ _ k j)

/-- The region's third input is the second weight array transposed. -/
theorem V_wt1 (c : Dev nD) (k j : Fin 256) : V m c main_v4 (ix2 k j) = m ((c : Thread nD τ).loc main_arg2) (ix2 j k) := by
  have e : (V m c main_v4 : S256x256.Idx → EReal)
      = transpose S256x256 [1, 0] (m ((c : Thread nD τ).loc main_arg2) : S256x256.Idx → EReal) transposes_S256x256_S256x256_1_0 := by
    show StableHlo.after hostOps0 (fun b => m (c, b)) (Proc.devRef .tc main_v4) = _
    after_results
    rfl
  exact (congrFun e (ix2 k j)).trans (transpose_sq_apply _ _ k j)

/-- The region's fourth input is the third weight array transposed. -/
theorem V_wt2 (c : Dev nD) (k j : Fin 256) : V m c main_v6 (ix2 k j) = m ((c : Thread nD τ).loc main_arg3) (ix2 j k) := by
  have e : (V m c main_v6 : S256x256.Idx → EReal)
      = transpose S256x256 [1, 0] (m ((c : Thread nD τ).loc main_arg3) : S256x256.Idx → EReal) transposes_S256x256_S256x256_1_0 := by
    show StableHlo.after hostOps0 (fun b => m (c, b)) (Proc.devRef .tc main_v6) = _
    after_results
    rfl
  exact (congrFun e (ix2 k j)).trans (transpose_sq_apply _ _ k j)

/-- The program's result at (b, i) is the region's output array at (i, b). -/
theorem tail_apply (c : Dev nD) (b : Fin 1024) (i : Fin 256) :
    Pipeline.afterTail₀ cfgs (dats m) 0 (V0 m) [hostOps1] c main_v8 (ix2 b i) = (dats m 0 c).arrAt 4 cfg0.N (ix2 i b) := by
  unfold Pipeline.afterTail₀
  have e : ∀ W : Valuation τ sig (Elt Ideal),
      (StableHlo.after hostOps1 W (Proc.devRef .tc main_v8) : S1024x256.Idx → EReal)
        = transpose S1024x256 [1, 0] (W (Proc.devRef .tc main_v7) : S256x1024.Idx → EReal) transposes_S256x1024_S1024x256_1_0 := by
    intro W
    after_results
  have hW : (Pipeline.withArrays (cfgs 0).spec c (V0 m c) (fun w => (dats m 0 c).arrAt w (cfgs 0).N)
      (Proc.devRef .tc main_v7) : S256x1024.Idx → EReal) = (dats m 0 c).arrAt 4 cfg0.N :=
    Pipeline.withArrays_arr spec0 launch0.win.arr_inj c _ _ 4
  show StableHlo.after hostOps1 _ (Proc.devRef .tc main_v8) (ix2 b i) = _
  refine (congrFun (e _) (ix2 b i)).trans ?_
  refine (transpose_apply [1, 0] _ _ (ix2 b i) (ix2 i b)
    (fun a => by match a with | ⟨0, _⟩ => rfl | ⟨1, _⟩ => rfl)).trans ?_
  exact congrFun hW (ix2 i b)

end Cert.KernelIdeal.HostSide

end
-- ==== Proof.KernelRun.lean ====
/-
  The kernel program's run, with its result read: every weakly fair execution ends with the result array at the
  leave-one-out network of the four argument arrays.

  The host transposes each weight array before the region (entry `(k, j)` of a staged array is entry `(j, k)` of the
  argument) and transposes the region's `[256, 1024]` output array after it, so the result at `(batch, node)` is the
  region's entry `(node, batch)`, which is the network's value at `(batch, node)`.
-/
import proofs.«114213_j57896159150711_2_alg».proof.Proof.RegionValue
import proofs.«114213_j57896159150711_2_alg».proof.Proof.HostSide
import proofs.«114213_j57896159150711_2_alg».proof.Proof.Spec

noncomputable section

namespace Cert.KernelIdeal.RunValue

open Idealize.ShloMosaic Idealize.ShloMosaic.TcCoe Idealize.SL.Sem Idealize.ShloMosaic.ValueIdx
open Cert.KernelIdeal Cert.KernelIdeal.Gen Cert.KernelIdeal.GenP Cert.KernelIdeal.RegionValue Cert.LeaveOneOut

variable (m : (ℓ : Loc nD τ sig) → Buf (Elt Ideal) ℓ) (ρ : Dev nD → PrngReg)

/-- The region's output array at `(node, batch)` is the network at `(batch, node)`. -/
theorem outT_eq_net (c : Dev nD) (i : Fin 256) (b : Fin 1024) :
    outT (V m c main_v0) (V m c main_v2) (V m c main_v4) (V m c main_v6) (ix2 i b)
      = net (m ((c : Thread nD τ).loc main_arg0)) (m ((c : Thread nD τ).loc main_arg1)) (m ((c : Thread nD τ).loc main_arg2)) (m ((c : Thread nD τ).loc main_arg3)) (ix2 b i) := by
  have hX : (V m c main_v0 : S1024x256.Idx → EReal) = m ((c : Thread nD τ).loc main_arg0) :=
    funext fun q => Cert.KernelIdeal.HostSide.V_x m c q
  have hA : (V m c main_v2 : S256x256.Idx → EReal) = fun q => m ((c : Thread nD τ).loc main_arg1) (ix2 (q 1) (q 0)) :=
    funext fun q => by
      obtain ⟨k, j, rfl⟩ : ∃ (k j : Fin 256), q = ix2 k j := ⟨q 0, q 1, eq_ix2 q⟩
      exact Cert.KernelIdeal.HostSide.V_wt0 m c k j
  have hB : (V m c main_v4 : S256x256.Idx → EReal) = fun q => m ((c : Thread nD τ).loc main_arg2) (ix2 (q 1) (q 0)) :=
    funext fun q => by
      obtain ⟨k, j, rfl⟩ : ∃ (k j : Fin 256), q = ix2 k j := ⟨q 0, q 1, eq_ix2 q⟩
      exact Cert.KernelIdeal.HostSide.V_wt1 m c k j
  have hC : (V m c main_v6 : S256x256.Idx → EReal) = fun q => m ((c : Thread nD τ).loc main_arg3) (ix2 (q 1) (q 0)) :=
    funext fun q => by
      obtain ⟨k, j, rfl⟩ : ∃ (k j : Fin 256), q = ix2 k j := ⟨q 0, q 1, eq_ix2 q⟩
      exact Cert.KernelIdeal.HostSide.V_wt2 m c k j
  rw [outT_ix2, net_ix2, hX, hA, hB, hC]
  rfl

/-- The program's result array after the run. -/
theorem result_eq (c : Dev nD) :
    Pipeline.afterTail₀ cfgs (dats m) 0 (V0 m) [hostOps1] c main_v8
      = net (m ((c : Thread nD τ).loc main_arg0)) (m ((c : Thread nD τ).loc main_arg1)) (m ((c : Thread nD τ).loc main_arg2)) (m ((c : Thread nD τ).loc main_arg3)) := by
  funext q
  obtain ⟨b, i, rfl⟩ : ∃ (b : Fin 1024) (i : Fin 256), q = ix2 b i := ⟨q 0, q 1, eq_ix2 q⟩
  rw [Cert.KernelIdeal.HostSide.tail_apply, final, outT_eq_net]

/-- Every weakly fair execution terminates with the result at the network of the arguments, the arguments unchanged. -/
theorem run : θ_run defs (onTc (τ := τ) (main (F := Ideal))) ⟨m, fun _ => 0, ρ⟩ fun r => ∀ c : Dev nD,
      r.2.mem ((c : Thread nD τ).loc main_v8)
        = net (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v8 (Pipeline.mem_restRefs_of main_v8 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.RefValue.lean ====
/-
  The reference program's result is the leave-one-out network.

  The reference builds, for every node i, the row of the input with entry i multiplied by zero (the mask
  1 - [i = n]), pushes all 256 masked copies through the three layers, keeps of copy i only the output unit i
  (a select against the diagonal i = j) and sums the copies.  Read at an index this is: the diagonal sum is its
  one surviving term; layers 1 and 2 are the specification's sums term by term; and layer 0, the sum of the masked
  products, is the full sum less the removed term, which is where the entries of the input and of the first weight
  array must be real numbers.
-/
import proofs.«114213_j57896159150711_2_alg».proof.Proof.Gen.ReferenceIdeal.Read
import proofs.«114213_j57896159150711_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open Cert.LeaveOneOut

/-! ## Words: two numbers below 256 are equal exactly when their 32-bit words are -/

theorem ofNat_inj256 (a b : Fin 256) : BitVec.ofNat 32 a.val = BitVec.ofNat 32 b.val ↔ a = b := by
  constructor
  · intro h
    have h2 := congrArg BitVec.toNat h
    simp only [BitVec.toNat_ofNat] at h2
    have ha := a.isLt
    have hb := b.isLt
    apply Fin.ext
    omega
  · rintro rfl; rfl

/-- The equality bit of two such words is the equality of the numbers. -/
theorem cmpi_eq_ofNat (a b : Fin 256) :
    IntOp.cmpi .eq (BitVec.ofNat 32 a.val) (BitVec.ofNat 32 b.val) = if a = b then 1#1 else 0#1 := by
  by_cases h : a = b
  · subst h; rw [if_pos rfl]; simp [IntOp.cmpi]
  · rw [if_neg h]
    have hne : ¬ (BitVec.ofNat 32 a.val = BitVec.ofNat 32 b.val) := fun e => h ((ofNat_inj256 a b).mp e)
    have hb : (BitVec.ofNat 32 a.val == BitVec.ofNat 32 b.val) = false := beq_eq_false_iff_ne.mpr hne
    simp only [IntOp.cmpi, hb]
    rfl

/-! ## The mask -/

/-- The mask's comparison bit at (i, n): node i (plus the zero word) against column n. -/
theorem v4_at (i n : Fin 256) :
    val_main_v4 (F := Ideal) (ix2 i n) = if i = n then 1#1 else 0#1 := by
  rw [val_main_v4_apply, val_main_v3_apply, val_main_v0_apply, val_main_v2_apply, val_main_c_apply, val_main_v1_apply]
  show IntOp.cmpi .eq (IntOp.addi (BitVec.ofNat 32 i.val) 0#32) (BitVec.ofNat 32 n.val) = _
  rw [show IntOp.addi (BitVec.ofNat 32 i.val) 0#32 = BitVec.ofNat 32 i.val from BitVec.add_zero _]
  exact cmpi_eq_ofNat i n

/-- The mask at (i, n) is zero on the removed entry n = i and one elsewhere. -/
theorem v7_at (i n : Fin 256) :
    val_main_v7 (F := Ideal) (ix2 i n) = if n = i then (0 : EReal) else 1 := by
  rw [val_main_v7_apply, val_main_v6_apply, val_main_cst_apply, val_main_v5_apply, v4_at]
  show Ideal.ofBits .f32 0x3F800000#32 - (((if i = n then 1#1 else 0#1 : BitVec 1).toNat : ℝ) : EReal) = _
  rw [Ideal.ofBits_one_f32]
  by_cases h : n = i
  · subst h
    rw [if_pos rfl, if_pos rfl]
    show (1 : EReal) - (((1 : ℕ) : ℝ) : EReal) = 0
    rw [Nat.cast_one, EReal.coe_one]
    exact (EReal.coe_sub 1 1).symm.trans (by rw [sub_self, EReal.coe_zero])
  · rw [if_neg h, if_neg (Ne.symm h)]
    show (1 : EReal) - (((0 : ℕ) : ℝ) : EReal) = 1
    rw [Nat.cast_zero, EReal.coe_zero, sub_zero]

/-- The masked input at (i, b, n): the entry, times the mask. -/
theorem v12_at (x0 : (⟨S1024x256, .f32⟩ : BufTy).Contents (Elt Ideal)) (i : Fin 256) (b : Fin 1024) (n : Fin 256) :
    val_main_v12 (F := Ideal) x0 (ix3 i b n) = x0 (ix2 b n) * (if n = i then (0 : EReal) else 1) := by
  rw [val_main_v12_apply, val_main_v10_apply, val_main_v8_apply, val_main_v11_apply, val_main_v9_apply]
  have e1 : idx_main_v8 (idx_main_v10 (ix3 i b n)) = ix2 b n :=
    funext fun a => Fin.ext (by match a with | ⟨0, _⟩ => rfl | ⟨1, _⟩ => rfl)
  have e2 : idx_main_v9 (idx_main_v11 (ix3 i b n)) = ix2 i n :=
    funext fun a => Fin.ext (by match a with | ⟨0, _⟩ => rfl | ⟨1, _⟩ => rfl)
  rw [e1, e2, v7_at]
  rfl

/-! ## The three layers -/

theorem lidx13 (i : Fin 256) (b : Fin 1024) (m k : Fin 256) : lidx_main_v13 (ix3 i b m) k = ix3 i b k :=
  funext fun a => Fin.ext (by match a with | ⟨0, _⟩ => rfl | ⟨1, _⟩ => rfl | ⟨2, _⟩ => rfl)
theorem ridx13 (i : Fin 256) (b : Fin 1024) (m k : Fin 256) : ridx_main_v13 (ix3 i b m) k = ix2 m k :=
  funext fun a => Fin.ext (by match a with | ⟨0, _⟩ => rfl | ⟨1, _⟩ => rfl)
theorem lidx15 (i : Fin 256) (b : Fin 1024) (m k : Fin 256) : lidx_main_v15 (ix3 i b m) k = ix3 i b k :=
  funext fun a => Fin.ext (by match a with | ⟨0, _⟩ => rfl | ⟨1, _⟩ => rfl | ⟨2, _⟩ => rfl)
theorem ridx15 (i : Fin 256) (b : Fin 1024) (m k : Fin 256) : ridx_main_v15 (ix3 i b m) k = ix2 m k :=
  funext fun a => Fin.ext (by match a with | ⟨0, _⟩ => rfl | ⟨1, _⟩ => rfl)
theorem lidx17 (i : Fin 256) (b : Fin 1024) (m k : Fin 256) : lidx_main_v17 (ix3 i b m) k = ix3 i b k :=
  funext fun a => Fin.ext (by match a with | ⟨0, _⟩ => rfl | ⟨1, _⟩ => rfl | ⟨2, _⟩ => rfl)
theorem ridx17 (i : Fin 256) (b : Fin 1024) (m k : Fin 256) : ridx_main_v17 (ix3 i b m) k = ix2 m k :=
  funext fun a => Fin.ext (by match a with | ⟨0, _⟩ => rfl | ⟨1, _⟩ => rfl)

/-- Layer 0 before the tanh: the sum of the masked products is the full sum less the removed term, for real entries. -/
theorem v13_at (x0 : (⟨S1024x256, .f32⟩ : BufTy).Contents (Elt Ideal)) (x1 : (⟨S256x256, .f32⟩ : BufTy).Contents (Elt Ideal))
    (hx : ∀ q, ∃ r : ℝ, x0 q = (r : EReal)) (hw : ∀ q, ∃ r : ℝ, x1 q = (r : EReal))
    (i : Fin 256) (b : Fin 1024) (m : Fin 256) :
    val_main_v13 (F := Ideal) x0 x1 (ix3 i b m) = pre0 x0 x1 b i m := by
  choose xr hxr using hx
  choose wr hwr using hw
  rw [val_main_v13_apply]
  have hterm : ∀ k : Fin 256, val_main_v12 (F := Ideal) x0 (lidx_main_v13 (ix3 i b m) k) * x1 (ridx_main_v13 (ix3 i b m) k)
      = ((xr (ix2 b k) : EReal) * (if k = i then (0 : EReal) else 1)) * (wr (ix2 m k) : EReal) := by
    intro k
    rw [lidx13, ridx13, v12_at, hxr, hwr]
  rw [Finset.sum_congr rfl (fun k _ => hterm k), masked_sum i (fun k => xr (ix2 b k)) (fun k => wr (ix2 m k))]
  unfold pre0
  simp only [hxr, hwr]

/-- Layer 1 before the tanh. -/
theorem v15_at (x0 : (⟨S1024x256, .f32⟩ : BufTy).Contents (Elt Ideal)) (x1 x2 : (⟨S256x256, .f32⟩ : BufTy).Contents (Elt Ideal))
    (hx : ∀ q, ∃ r : ℝ, x0 q = (r : EReal)) (hw : ∀ q, ∃ r : ℝ, x1 q = (r : EReal))
    (i : Fin 256) (b : Fin 1024) (n : Fin 256) :
    val_main_v15 (F := Ideal) x0 x1 x2 (ix3 i b n) = hid1 x0 x1 x2 b i n := by
  rw [val_main_v15_apply]
  unfold hid1
  refine Finset.sum_congr rfl fun m _ => ?_
  rw [lidx15, ridx15, val_main_v14_apply, v13_at x0 x1 hx hw]
  rfl

/-- Layer 2 before the tanh, at output unit j. -/
theorem v17_at (x0 : (⟨S1024x256, .f32⟩ : BufTy).Contents (Elt Ideal)) (x1 x2 x3 : (⟨S256x256, .f32⟩ : BufTy).Contents (Elt Ideal))
    (hx : ∀ q, ∃ r : ℝ, x0 q = (r : EReal)) (hw : ∀ q, ∃ r : ℝ, x1 q = (r : EReal))
    (i : Fin 256) (b : Fin 1024) (j : Fin 256) :
    val_main_v17 (F := Ideal) x0 x1 x2 x3 (ix3 i b j) = ∑ n : Fin 256, Ideal.tanh (hid1 x0 x1 x2 b i n) * x3 (ix2 j n) := by
  rw [val_main_v17_apply]
  refine Finset.sum_congr rfl fun n _ => ?_
  rw [lidx17, ridx17, val_main_v16_apply, v15_at x0 x1 x2 hx hw]
  rfl

/-- The last layer's output at (i, b, i) is the network at (b, i). -/
theorem v18_at (x0 : (⟨S1024x256, .f32⟩ : BufTy).Contents (Elt Ideal)) (x1 x2 x3 : (⟨S256x256, .f32⟩ : BufTy).Contents (Elt Ideal))
    (hx : ∀ q, ∃ r : ℝ, x0 q = (r : EReal)) (hw : ∀ q, ∃ r : ℝ, x1 q = (r : EReal))
    (i : Fin 256) (b : Fin 1024) :
    val_main_v18 (F := Ideal) x0 x1 x2 x3 (ix3 i b i) = Ideal.tanh (outPre x0 x1 x2 x3 b i) := by
  rw [val_main_v18_apply, v17_at x0 x1 x2 x3 hx hw]
  rfl

/-! ## The diagonal -/

/-- The selected array at (k, b, i): copy k's output unit i when k = i, zero otherwise. -/
theorem v24_at (x0 : (⟨S1024x256, .f32⟩ : BufTy).Contents (Elt Ideal)) (x1 x2 x3 : (⟨S256x256, .f32⟩ : BufTy).Contents (Elt Ideal))
    (k : Fin 256) (b : Fin 1024) (i : Fin 256) :
    val_main_v24 (F := Ideal) x0 x1 x2 x3 (ix3 k b i)
      = if k = i then val_main_v18 (F := Ideal) x0 x1 x2 x3 (ix3 k b i) else 0 := by
  rw [val_main_v24_apply, val_main_v22_apply, val_main_v21_apply, val_main_v19_apply, val_main_v20_apply,
    val_main_v23_apply, val_main_cst_0_apply]
  show Scalar.select (IntOp.cmpi .eq (BitVec.ofNat 32 k.val) (BitVec.ofNat 32 i.val)) _ (Ideal.ofBits .f32 0x00000000#32) = _
  rw [cmpi_eq_ofNat, Ideal.ofBits_zero_f32]
  by_cases h : k = i
  · rw [if_pos h, if_pos h, select_one]
  · rw [if_neg h, if_neg h, select_zero]

theorem idx25 (b : Fin 1024) (i k : Fin 256) : idx_main_v25 (ix2 b i) k = ix3 k b i :=
  funext fun a => Fin.ext (by match a with | ⟨0, _⟩ => rfl | ⟨1, _⟩ => rfl | ⟨2, _⟩ => rfl)

/-- The reference's result, as a function of its four arguments, is the leave-one-out network, when the input and the
    first weight array hold real numbers. -/
theorem ref_eq_net (x0 : (⟨S1024x256, .f32⟩ : BufTy).Contents (Elt Ideal)) (x1 x2 x3 : (⟨S256x256, .f32⟩ : BufTy).Contents (Elt Ideal))
    (hx : ∀ q, ∃ r : ℝ, x0 q = (r : EReal)) (hw : ∀ q, ∃ r : ℝ, x1 q = (r : EReal)) :
    Cert.ReferenceIdeal.Read.val_main_v25 (F := Ideal) x0 x1 x2 x3 = Cert.LeaveOneOut.net x0 x1 x2 x3 := by
  funext q
  obtain ⟨b, i, rfl⟩ : ∃ (b : Fin 1024) (i : Fin 256), q = ix2 b i := ⟨q 0, q 1, eq_ix2 q⟩
  rw [val_main_v25_apply, net_ix2, val_main_cst_1_apply]
  have hs : ∀ k : Fin 256, val_main_v24 (F := Ideal) x0 x1 x2 x3 (idx_main_v25 (ix2 b i) k)
      = if k = i then val_main_v18 (F := Ideal) x0 x1 x2 x3 (ix3 k b i) else 0 := by
    intro k; rw [idx25, v24_at]
  rw [Finset.sum_congr rfl (fun k _ => hs k)]
  show Ideal.ofBits .f32 0x00000000#32 + _ = _
  rw [Ideal.ofBits_zero_f32, zero_add_sum_diag i (fun k => val_main_v18 (F := Ideal) x0 x1 x2 x3 (ix3 k b i)),
    v18_at x0 x1 x2 x3 hx hw]

end Cert.ReferenceIdeal.RefValue

end
-- ==== Proof.Finite.lean ====
/-
  From the printed finiteness predicate to "every entry is a real number".

  The predicate is the conjunction, over the four argument arrays, of "every entry has absolute value below +inf".
  On the extended reals the absolute value max x (-x) of either infinity is +inf, so an entry that passes is a real.
-/
import proofs.«114213_j57896159150711_2_alg».proof.Defs
import proofs.«114213_j57896159150711_2_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx

/-- An extended real whose absolute value is below the f32 pattern of +inf is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- The scalar shape has one index. -/
instance : Subsingleton Cert.Pre_finite_inputs.S_.Idx := ⟨fun a b => funext fun d => d.elim0⟩

/-- Under the printed predicate, the entries of the first two argument arrays are real numbers. -/
theorem real_of_pre [hP : Cert.Pre_finite_inputs.Facts]
    (a0 : FVec Ideal Cert.Pre_finite_inputs.S1024x256 .f32) (a1 a2 a3 : FVec Ideal Cert.Pre_finite_inputs.S256x256 .f32)
    (h : Cert.Pre_finite_inputs.fn (F := Ideal) a0 a1 a2 a3 = fun _ => 1#1) :
    (∀ q, ∃ r : ℝ, a0 q = (r : EReal)) ∧ (∀ q, ∃ r : ℝ, a1 q = (r : EReal)) := by
  have h0 := congrFun h ix0
  dsimp only [Cert.Pre_finite_inputs.fn, Cert.Pre_finite_inputs.fn_part1] at h0
  change IntOp.andi (IntOp.andi (IntOp.andi _ _) _) _ = 1#1 at h0
  obtain ⟨h123, _⟩ := IntOp.andi_eq_one.mp h0
  obtain ⟨h12, _⟩ := IntOp.andi_eq_one.mp h123
  obtain ⟨h1, h2⟩ := IntOp.andi_eq_one.mp h12
  constructor
  · intro q
    exact real_of_abs_lt (a0 q) (Host.reduce_andi_all _ _ _ _ ix0 h1 q)
  · intro q
    exact real_of_abs_lt (a1 q) (Host.reduce_andi_all _ _ _ _ ix0 h2 q)

end Cert.Finite

end
-- ==== Proof.lean ====
/-
  The kernel computes, for every node `i` and batch row `b`, the three-layer tanh network on the input row with entry
  `i` removed, and keeps output unit `i`; the reference computes the same by masking the input, running all 256 masked
  copies through the three layers and taking the diagonal.  On the extended reals both are the function `net` of the four
  argument arrays (Proof/Spec.lean):

  * the kernel, per node, subtracts from the shared first-layer product the outer product of the node's input column and
    weight row (extracted by products with one-hot vectors), runs the second layer, and contracts with the node's column of
    the third weight array (Proof/NodeCol.lean, NodeVal.lean, BlockVal.lean, RegionValue.lean, HostSide.lean, KernelRun.lean);
  * the reference's masked first layer equals the full product less the removed term because the inputs are finite — the
    one place the precondition is used (Proof/Finite.lean, Proof/RefValue.lean).

  The three frame claims: the two kernel programs' from the frame certificate of the region (Proof/FrameKernel.lean,
  Proof/FrameKernelIdeal.lean), the reference's from its run.  The idealization rewrote nothing, so `preserves` is `True`.
-/
import proofs.«114213_j57896159150711_2_alg».proof.Defs
import proofs.«114213_j57896159150711_2_alg».proof.Proof.Gen.Kernel
import proofs.«114213_j57896159150711_2_alg».proof.Proof.Gen.KernelIdeal
import proofs.«114213_j57896159150711_2_alg».proof.Proof.Gen.ReferenceIdeal
import proofs.«114213_j57896159150711_2_alg».proof.Proof.Gen.Pre_finite_inputs
import proofs.«114213_j57896159150711_2_alg».proof.Proof.Gen.ReferenceIdeal.Run
import proofs.«114213_j57896159150711_2_alg».proof.Proof.Gen.ReferenceIdeal.Read
import proofs.«114213_j57896159150711_2_alg».proof.Proof.FrameKernel
import proofs.«114213_j57896159150711_2_alg».proof.Proof.FrameKernelIdeal
import proofs.«114213_j57896159150711_2_alg».proof.Proof.KernelRun
import proofs.«114213_j57896159150711_2_alg».proof.Proof.RefValue
import proofs.«114213_j57896159150711_2_alg».proof.Proof.Finite
import Idealize.ShloMosaic.Adequacy
import Idealize.ShloMosaic.Init

noncomputable section

namespace Cert.Proof

open Idealize.ShloMosaic Idealize.SL.Sem Cert.LeaveOneOut

theorem frame_kernel : Cert.frame_Kernel := fun m ρ _ => Cert.Kernel.GenP.frame m ρ

theorem frame_kernelIdeal : Cert.frame_KernelIdeal := fun m ρ _ => Cert.KernelIdeal.GenP.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at `net` of the argument arrays: the kernel by its run read back,
    the reference by its run and, the inputs being finite, the masked first layer's law. -/
theorem algebraic : Cert.algebraic_KernelIdeal_ReferenceIdeal := by
  intro m ρ m' ρ' hpre hagree
  refine ⟨fun c => net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.RunValue.run m ρ, ?_⟩
  refine (θ_run Cert.ReferenceIdeal.defs _ _).mono (fun _ h c => ⟨?_, (h c).2⟩)
    (Cert.ReferenceIdeal.Value.run (F := Ideal) m' ρ')
  refine (h c).1.trans ((Cert.ReferenceIdeal.Read.val_main_v25_eq (F := Ideal) _ _ _ _).trans ?_)
  rw [(hagree c).1, (hagree c).2.1, (hagree c).2.2.1, (hagree c).2.2.2]
  obtain ⟨hx, hw⟩ := Cert.Finite.real_of_pre _ _ _ _ (hpre c)
  exact Cert.ReferenceIdeal.RefValue.ref_eq_net _ _ _ _ hx hw

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
